-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1x8x8 : Shape := ⟨4, ![2048, 1, 8, 8]⟩
abbrev S1024x64x1x8x8 : Shape := ⟨5, ![1024, 64, 1, 8, 8]⟩
abbrev S1x1024 : Shape := ⟨2, ![1, 1024]⟩
abbrev S_ : Shape := ⟨0, ![]⟩

class Facts : Prop where
  bcast_S_S2048x1x8x8 : S_.BroadcastsInDim S2048x1x8x8 (![] : Fin 0 → Fin S2048x1x8x8.rank)
  reducesTo_S2048x1x8x8_S_d0_1_2_3 : S2048x1x8x8.ReducesTo [0, 1, 2, 3] S_
  h_S_ : 0 < S_.numel
  bcast_S_S1024x64x1x8x8 : S_.BroadcastsInDim S1024x64x1x8x8 (![] : Fin 0 → Fin S1024x64x1x8x8.rank)
  reducesTo_S1024x64x1x8x8_S_d0_1_2_3_4 : S1024x64x1x8x8.ReducesTo [0, 1, 2, 3, 4] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S2048x1x8x8 .f32) (main_arg1 : FVec F S1024x64x1x8x8 .f32) (main_arg2 : FVec F S1x1024 .f32) (main_arg3 : FVec F S1x1024 .f32) : IVec S_ 1 :=
  let main_v0 : FVec F S2048x1x8x8 .f32 := Host.absf main_arg0
  let main_cst : FVec F S_ .f32 := constant S_ .f32 0x7F800000#32
  let main_v1 : FVec F S2048x1x8x8 .f32 := broadcastInDim S2048x1x8x8 ![] bcast_S_S2048x1x8x8 main_cst
  let main_v2 : IVec S2048x1x8x8 1 := cmpf .olt main_v0 main_v1
  let main_c : IVec S_ 1 := constantI S_ 1 1#1
  let main_v3 : IVec S_ 1 := (fun x v => Host.reduce IntOp.andi x v reducesTo_S2048x1x8x8_S_d0_1_2_3 h_S_) main_v2 main_c
  let main_v4 : FVec F S1024x64x1x8x8 .f32 := Host.absf main_arg1
  let main_cst_0 : FVec F S_ .f32 := constant S_ .f32 0x7F800000#32
  let main_v5 : FVec F S1024x64x1x8x8 .f32 := broadcastInDim S1024x64x1x8x8 ![] bcast_S_S1024x64x1x8x8 main_cst_0
  let main_v6 : IVec S1024x64x1x8x8 1 := cmpf .olt main_v4 main_v5
  let main_c_1 : IVec S_ 1 := constantI S_ 1 1#1
  let main_v7 : IVec S_ 1 := (fun x v => Host.reduce IntOp.andi x v reducesTo_S1024x64x1x8x8_S_d0_1_2_3_4 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Kernel.lean ====
abbrev S2048x1x8x8 : Shape := ⟨4, ![2048, 1, 8, 8]⟩
abbrev S1024x64x1x8x8 : Shape := ⟨5, ![1024, 64, 1, 8, 8]⟩
abbrev S1x1024 : Shape := ⟨2, ![1, 1024]⟩
abbrev S2048x64 : Shape := ⟨2, ![2048, 64]⟩
abbrev S1024x64x64 : Shape := ⟨3, ![1024, 64, 64]⟩
abbrev S64x1024x64 : Shape := ⟨3, ![64, 1024, 64]⟩
abbrev S2048x1024 : Shape := ⟨2, ![2048, 1024]⟩
abbrev S1x512x64 : Shape := ⟨3, ![1, 512, 64]⟩
abbrev S1x512 : Shape := ⟨2, ![1, 512]⟩
abbrev S2048x512 : Shape := ⟨2, ![2048, 512]⟩
abbrev S512x64 : Shape := ⟨2, ![512, 64]⟩

abbrev nBuf : Space → Nat
  | .hbm => 8
  | .vmem => 10
  | .smem => 0
  | _ => 0

abbrev bufTy : (tb : Table) → Fin (tcTables nBuf tb) → BufTy
  | .hbm, ⟨0, _⟩ => ⟨S2048x1x8x8, .f32⟩
  | .hbm, ⟨1, _⟩ => ⟨S1024x64x1x8x8, .f32⟩
  | .hbm, ⟨2, _⟩ => ⟨S1x1024, .f32⟩
  | .hbm, ⟨3, _⟩ => ⟨S1x1024, .f32⟩
  | .hbm, ⟨4, _⟩ => ⟨S2048x64, .f32⟩
  | .hbm, ⟨5, _⟩ => ⟨S1024x64x64, .f32⟩
  | .hbm, ⟨6, _⟩ => ⟨S64x1024x64, .f32⟩
  | .hbm, ⟨7, _⟩ => ⟨S2048x1024, .f32⟩
  | .local _ .vmem, ⟨0, _⟩ => ⟨S2048x64, .f32⟩
  | .local _ .vmem, ⟨1, _⟩ => ⟨S1x512x64, .f32⟩
  | .local _ .vmem, ⟨2, _⟩ => ⟨S1x512x64, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | _, _ => ⟨S2048x1x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v15 : BitVec 1 := Scalar.cmpi .eq arg1 c63_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2048x1x8x8_S2048x64 : S2048x1x8x8.ShapeCasts S2048x64
  shapeCasts_S1024x64x1x8x8_S1024x64x64 : S1024x64x1x8x8.ShapeCasts S1024x64x64
  transposes_S1024x64x64_S64x1024x64_1_0_2 : S1024x64x64.Transposes [1, 0, 2] S64x1024x64
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x512_S1x512_0_0 : ∀ a, (![0, 0] : Fin 2 → Nat) a + S1x512.size a ≤ S1x512.size a
  h_S1x512 : 0 < S1x512.numel
  broadcasts_S1x512_S2048x512 : S1x512.Broadcasts S2048x512
  dot_S2048x64_S512x64_S2048x512_1_1_0_0_n_n_wf : DotDims.WF S2048x64 S512x64 S2048x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S2048x64.size a
  hwx0_0 : ∀ i : grid0.Coords, EltTy.bits .f32 = 32 ∨ (Rect.block (s := S2048x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S64x1024x64.size a
  hwx0_1 : ∀ i : grid0.Coords, EltTy.bits .f32 = 32 ∨ (Rect.block (s := S64x1024x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x1024.size a
  hwx0_3 : ∀ i : grid0.Coords, EltTy.bits .f32 = 32 ∨ (Rect.block (s := S1x1024) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x1024.size a
  hwx0_4 : ∀ i : grid0.Coords, EltTy.bits .f32 = 32 ∨ (Rect.block (s := S2048x1024) S2048x512.size (cc0_transform_4 i) (hinb0_4 i)).WholeWords (EltTy.packing .f32)

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf

abbrev win0_0 : Pipeline.Window sig grid0 :=
  Pipeline.Window.ofSpec (Memref.whole main_v0) S2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x1x8x8 : Shape := ⟨4, ![2048, 1, 8, 8]⟩
abbrev S1024x64x1x8x8 : Shape := ⟨5, ![1024, 64, 1, 8, 8]⟩
abbrev S1x1024 : Shape := ⟨2, ![1, 1024]⟩
abbrev S2048x64 : Shape := ⟨2, ![2048, 64]⟩
abbrev S1024x64x64 : Shape := ⟨3, ![1024, 64, 64]⟩
abbrev S1024x64x2048 : Shape := ⟨3, ![1024, 64, 2048]⟩
abbrev S2048x64x1024 : Shape := ⟨3, ![2048, 64, 1024]⟩
abbrev S_ : Shape := ⟨0, ![]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1x8x8, .f32⟩
  | .hbm, ⟨1, _⟩ => ⟨S1024x64x1x8x8, .f32⟩
  | .hbm, ⟨2, _⟩ => ⟨S1x1024, .f32⟩
  | .hbm, ⟨3, _⟩ => ⟨S1x1024, .f32⟩
  | .hbm, ⟨4, _⟩ => ⟨S2048x64, .f32⟩
  | .hbm, ⟨5, _⟩ => ⟨S1024x64x64, .f32⟩
  | .hbm, ⟨6, _⟩ => ⟨S1024x64x2048, .f32⟩
  | .hbm, ⟨7, _⟩ => ⟨S2048x64x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | _, _ => ⟨S2048x1x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  shapeCasts_S2048x1x8x8_S2048x64 : S2048x1x8x8.ShapeCasts S2048x64
  shapeCasts_S1024x64x1x8x8_S1024x64x64 : S1024x64x1x8x8.ShapeCasts S1024x64x64
  transposes_S1024x64x2048_S2048x64x1024_2_1_0 : S1024x64x2048.Transposes [2, 1, 0] S2048x64x1024
  reducesTo_S2048x64x1024_S2048x1024_d1 : S2048x64x1024.ReducesTo [1] S2048x1024
  h_S_ : 0 < S_.numel
  bcast_S1x1024_S2048x1024_0_1 : S1x1024.BroadcastsInDim S2048x1024 (![0, 1] : Fin 2 → Fin S2048x1024.rank)
  dot_S1024x64x64_S2048x64_S1024x64x2048_2_1_01_0_n_n_wf : DotDims.WF S1024x64x64 S2048x64 S1024x64x2048 [2] [1] [0, 1] [0] [] []

variable [Facts₀]

def dot_S1024x64x64_S2048x64_S1024x64x2048_2_1_01_0_n_n : DotDims S1024x64x64 S2048x64 S1024x64x2048 where
  lhsContracting := [2]
  rhsContracting := [1]
  lhsNonContracting := [0, 1]
  rhsNonContracting := [0]
  lhsBatch := []
  rhsBatch := []
  wf := dot_S1024x64x64_S2048x64_S1024x64x2048_2_1_01_0_n_n_wf

class Facts : Prop extends Facts₀ where

variable [Facts]
-- ==== Proof.LibRunningMax.lean ====
/-
  A supremum reached one member at a time.

  For a family `s` indexed by `Fin n`, with values in a join-semilattice that has a least element, `runMax s k` is the
  supremum of the members whose index is at most `k`. It begins as the first member (joined with `⊥`, which changes
  nothing), takes in one more member per step, and is the supremum of the whole family once `k` has reached the
  last index. This is what an accumulator holds that is started at the least element and updated by a maximum
  with one member after another — for instance along a grid axis of extent `n` — whatever order a reference that
  reduces over the same members all at once may use.
-/
import Idealize.ShloMosaic.PureOps.Ideal

namespace Cert.Lib.RunningMax

variable {α : Type*} [SemilatticeSup α] [OrderBot α] {n : ℕ}

/-- The supremum of `s` over the indices `q ≤ k`. -/
def runMax (s : Fin n → α) (k : ℕ) : α :=
  (Finset.univ.filter fun q : Fin n => q.val ≤ k).sup s

/-- With the first member alone: that member (joined with `⊥`). -/
theorem runMax_zero (s : Fin n → α) (h : 0 < n) : runMax s 0 = ⊥ ⊔ s ⟨0, h⟩ := by
  unfold runMax
  have e : (Finset.univ.filter fun q : Fin n => q.val ≤ 0) = {⟨0, h⟩} := by
    ext q
    simp only [Finset.mem_filter, Finset.mem_univ, true_and, Finset.mem_singleton]
    constructor
    · intro hq; exact Fin.ext (Nat.le_zero.mp hq)
    · intro hq; rw [hq]
  rw [e, Finset.sup_singleton]
  exact (bot_sup_eq _).symm

/-- One more member joins the supremum so far. -/
theorem runMax_succ (s : Fin n → α) (k : ℕ) (h : k + 1 < n) :
    runMax s (k + 1) = runMax s k ⊔ s ⟨k + 1, h⟩ := by
  unfold runMax
  have e : (Finset.univ.filter fun q : Fin n => q.val ≤ k + 1)
      = insert (⟨k + 1, h⟩ : Fin n) (Finset.univ.filter fun q : Fin n => q.val ≤ k) := by
    ext q
    simp only [Finset.mem_filter, Finset.mem_univ, true_and, Finset.mem_insert]
    constructor
    · intro hq
      by_cases hk : q.val = k + 1
      · exact Or.inl (Fin.ext hk)
      · exact Or.inr (by omega)
    · rintro (hq | hq)
      · rw [hq]
      · omega
  rw [e, Finset.sup_insert]
  exact sup_comm _ _

/-- Once the last index has been reached the running supremum is the supremum of the whole family. -/
theorem runMax_last (s : Fin n → α) (k : ℕ) (h : n ≤ k + 1) : runMax s k = Finset.univ.sup s := by
  unfold runMax
  rw [Finset.filter_true_of_mem fun q _ => by have := q.isLt; omega]

end Cert.Lib.RunningMax
-- ==== Proof.Spec.lean ====
/-
  The function both programs compute, stated once over the four argument arrays, and the one order fact the
  kernel's accumulation needs.

  With the image `x[b]` flattened to 64 features and each sampled weight `ww[f, p]` flattened the same way, the
  score of image `b` against sample `p` of output feature `f` is the dot product over the 64 features; the result
  at `(b, f)` is the largest score over the 64 samples, times `scale[f]`, plus `bias[f]`. On the extended reals the
  largest of finitely many values is their supremum, and a supremum does not depend on the order in which its
  members are met: taking the samples one at a time from `-∞` (what the kernel does across its grid) reaches the
  supremum over all of them (what the reference's reduction is).
-/
import proofs.«149604_j24197845745735_2_alg».proof.Proof.LibRunningMax
import Idealize.ShloMosaic.PureOps.Ideal
import Idealize.ShloMosaic.Lib.ValueIdx

noncomputable section

namespace Cert.Spec

open Idealize.ShloMosaic Idealize.ShloMosaic.ValueIdx

/-! ## The grid: which output features and which sample a point works on -/

/-- The grid has 128 points, 64 consecutive ones per block of 512 output features: point `n` works on block
    `n / 64`, whose column `f` is output feature `(n / 64) · 512 + f`, -/
def col (n : ℕ) (hn : n < 128) (f : Fin 512) : Fin 1024 := ⟨n / 64 * 512 + f.val, by have := f.isLt; omega⟩

/-- and on sample `n % 64`. -/
def smp (n : ℕ) : Fin 64 := ⟨n % 64, Nat.mod_lt _ (by decide)⟩

/-- A point that is not the first of its block works on the same output features as the point before it. -/
theorem col_pred (n : ℕ) (hn : n < 128) (h : n % 64 ≠ 0) (f : Fin 512) : col (n - 1) (by omega) f = col n hn f :=
  Fin.ext (by show (n - 1) / 64 * 512 + f.val = n / 64 * 512 + f.val; omega)

/-! ## The running maximum over the samples met so far, along the points of a block -/

/-- The supremum of `s` over the samples `q ≤ k`. -/
abbrev runMax (s : Fin 64 → EReal) (k : ℕ) : EReal := Lib.RunningMax.runMax s k

/-- At the first point of a block of output features the running maximum is the first sample's value (joined
    with `-∞`, which changes nothing). -/
theorem runMax_first (s : Fin 64 → EReal) (n : ℕ) (h : n % 64 = 0) : runMax s (n % 64) = max ⊥ (s (smp n)) := by
  have e : smp n = ⟨0, by decide⟩ := Fin.ext h
  rw [e, h]
  exact Lib.RunningMax.runMax_zero s _

/-- At any later point of the block the running maximum is the previous point's joined with this point's sample. -/
theorem runMax_step (s : Fin 64 → EReal) (n : ℕ) (h : n % 64 ≠ 0) :
    runMax s (n % 64) = max (runMax s ((n - 1) % 64)) (s (smp n)) := by
  have hk : (n - 1) % 64 + 1 = n % 64 := by omega
  have hlt : (n - 1) % 64 + 1 < 64 := by omega
  have e : smp n = ⟨(n - 1) % 64 + 1, hlt⟩ := Fin.ext hk.symm
  rw [e, ← hk]
  exact Lib.RunningMax.runMax_succ s _ hlt

/-- At the last point of the block every sample has been met. -/
theorem runMax_done (s : Fin 64 → EReal) (n : ℕ) (h : n % 64 = 63) : runMax s (n % 64) = Finset.univ.sup s := by
  rw [h]
  exact Lib.RunningMax.runMax_last s 63 (by decide)

/-! ## The specification -/

/-- Feature `i` of image `b`: the image's 8 × 8 plane read row by row. -/
def xAt (x : (⟨4, ![2048, 1, 8, 8]⟩ : Shape).Idx → EReal) (b : Fin 2048) (i : Fin 64) : EReal :=
  x (ix4 b (0 : Fin 1) (⟨i.val / 8, by have := i.isLt; omega⟩ : Fin 8) (⟨i.val % 8, by omega⟩ : Fin 8))

/-- Feature `i` of sample `p` of output feature `f`: that sample's 8 × 8 plane read row by row. -/
def wAt (w : (⟨5, ![1024, 64, 1, 8, 8]⟩ : Shape).Idx → EReal) (f : Fin 1024) (p : Fin 64) (i : Fin 64) : EReal :=
  w (ix5 f p (0 : Fin 1) (⟨i.val / 8, by have := i.isLt; omega⟩ : Fin 8) (⟨i.val % 8, by omega⟩ : Fin 8))

/-- The score of image `b` against sample `p` of output feature `f`: the dot product over the 64 features. -/
def score (x : (⟨4, ![2048, 1, 8, 8]⟩ : Shape).Idx → EReal) (w : (⟨5, ![1024, 64, 1, 8, 8]⟩ : Shape).Idx → EReal)
    (b : Fin 2048) (f : Fin 1024) (p : Fin 64) : EReal :=
  ∑ i : Fin 64, xAt x b i * wAt w f p i

/-- The result at `(b, f)`: the largest score over the samples, scaled and shifted per output feature. -/
def resultAt (x : (⟨4, ![2048, 1, 8, 8]⟩ : Shape).Idx → EReal) (w : (⟨5, ![1024, 64, 1, 8, 8]⟩ : Shape).Idx → EReal)
    (sc bi : (⟨2, ![1, 1024]⟩ : Shape).Idx → EReal) (b : Fin 2048) (f : Fin 1024) : EReal :=
  (Finset.univ.sup fun p : Fin 64 => score x w b f p) * sc (ix2 (0 : Fin 1) f) + bi (ix2 (0 : Fin 1) f)

/-- The result array: `resultAt` at an index's two coordinates. -/
def result (x : (⟨4, ![2048, 1, 8, 8]⟩ : Shape).Idx → EReal) (w : (⟨5, ![1024, 64, 1, 8, 8]⟩ : Shape).Idx → EReal)
    (sc bi : (⟨2, ![1, 1024]⟩ : Shape).Idx → EReal) : (⟨2, ![2048, 1024]⟩ : Shape).Idx → EReal :=
  fun j => resultAt x w sc bi (j 0) (j 1)

theorem result_ix2 (x : (⟨4, ![2048, 1, 8, 8]⟩ : Shape).Idx → EReal) (w : (⟨5, ![1024, 64, 1, 8, 8]⟩ : Shape).Idx → EReal)
    (sc bi : (⟨2, ![1, 1024]⟩ : Shape).Idx → EReal) (b : Fin 2048) (f : Fin 1024) :
    result x w sc bi (ix2 b f) = resultAt x w sc bi b f := rfl

end Cert.Spec

end
-- ==== Proof.RefIsSpec.lean ====
/-
  The reference computes the specified function.

  Its einsum is one contraction over the 64 features with the weights as the LEFT factor, laid out as (output
  feature, sample, image) and then transposed to (image, sample, output feature); since multiplication of extended
  reals commutes, each entry is the score of the specification. Its maximum over the sample axis is a reduction
  from `-∞` by a commutative and associative maximum: the supremum of the scores over the samples. The scale and
  bias rows are broadcast down the images.
-/
import proofs.«149604_j24197845745735_2_alg».proof.Proof.Gen.ReferenceIdeal.Read
import proofs.«149604_j24197845745735_2_alg».proof.Proof.Spec
import Idealize.ShloMosaic.Lib.ValueIdx
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- One entry of the transposed contraction: the score of image `b` against sample `p` of output feature `f`. -/
theorem score_apply (x0 : S2048x1x8x8.Idx → EReal) (x1 : S1024x64x1x8x8.Idx → EReal) (b : Fin 2048) (p : Fin 64) (f : Fin 1024) :
    val_main_v3 (F := Ideal) x0 x1 (ix3 b p f) = Spec.score x0 x1 b f p := by
  rw [val_main_v3_apply, val_main_v2_apply]
  unfold Spec.score
  refine Finset.sum_congr rfl fun k _ => ?_
  rw [val_main_v1_apply, val_main_v0_apply, mul_comm]
  have hk := k.isLt
  have ex : idx_main_v0 (ridx_main_v2 (idx_main_v3 (ix3 b p f)) k)
      = ix4 b (0 : Fin 1) (⟨k.val / 8, by omega⟩ : Fin 8) (⟨k.val % 8, by omega⟩ : Fin 8) := funext fun a => Fin.ext (by
    match a with
    | ⟨0, _⟩ => show (b.val * 64 + k.val) / 64 = b.val; omega
    | ⟨1, _⟩ => rfl
    | ⟨2, _⟩ => show (b.val * 64 + k.val) / 8 % 8 = k.val / 8; omega
    | ⟨3, _⟩ => show (b.val * 64 + k.val) % 8 = k.val % 8; omega)
  have ew : idx_main_v1 (lidx_main_v2 (idx_main_v3 (ix3 b p f)) k)
      = ix5 f p (0 : Fin 1) (⟨k.val / 8, by omega⟩ : Fin 8) (⟨k.val % 8, by omega⟩ : Fin 8) := funext fun a => Fin.ext (by
    have hp := p.isLt
    match a with
    | ⟨0, _⟩ => show ((f.val * 64 + p.val) * 64 + k.val) / 4096 = f.val; omega
    | ⟨1, _⟩ => show ((f.val * 64 + p.val) * 64 + k.val) / 64 % 64 = p.val; omega
    | ⟨2, _⟩ => rfl
    | ⟨3, _⟩ => show ((f.val * 64 + p.val) * 64 + k.val) / 8 % 8 = k.val / 8; omega
    | ⟨4, _⟩ => show ((f.val * 64 + p.val) * 64 + k.val) % 8 = k.val % 8; omega)
  rw [ex, ew]
  rfl

/-- The reduced index `(b, f)` with sample `p` put back on the reduced axis is `(b, p, f)`. -/
theorem lift_apply (h : S2048x64x1024.Reduces [1] S2048x1024) (b : Fin 2048) (f : Fin 1024) (p : Fin (S2048x64x1024.size 1)) :
    h.lift (ix2 b f) p = ix3 b (⟨p.val, p.isLt⟩ : Fin 64) f := by
  funext c; apply Fin.ext
  fin_cases c <;> rfl

/-- The reduction over the samples, from `-∞`: the supremum of the scores. -/
theorem max_apply (x0 : S2048x1x8x8.Idx → EReal) (x1 : S1024x64x1x8x8.Idx → EReal) (b : Fin 2048) (f : Fin 1024) :
    val_main_v4 (F := Ideal) x0 x1 (ix2 b f) = Finset.univ.sup fun p : Fin 64 => Spec.score x0 x1 b f p := by
  have h : S2048x64x1024.Reduces [1] S2048x1024 := by decide
  unfold val_main_v4
  rw [Host.reduce_eq_fold_single FloatOps.maximumf _ _ reducesTo_S2048x64x1024_S2048x1024_d1 h h_S_]
  have hf : (val_main_v3 (F := Ideal) x0 x1 ∘ h.lift (ix2 b f)) = fun p : Fin 64 => Spec.score x0 x1 b f p :=
    funext fun p => (congrArg (val_main_v3 (F := Ideal) x0 x1) (lift_apply h b f p)).trans (score_apply x0 x1 b _ f)
  have hb : (val_main_cst (F := Ideal) (Shape.Idx.first h_S_) : EReal) = ⊥ := by
    show Ideal.ofBits .f32 0xFF800000#32 = ⊥
    simp [Ideal.ofBits, Ideal.ieee]
  rw [hf, hb]
  rfl

/-- THE REFERENCE IS THE SPECIFICATION: its result stage, as a function of the four arguments, is `Spec.result`. -/
theorem result_eq (x0 : S2048x1x8x8.Idx → EReal) (x1 : S1024x64x1x8x8.Idx → EReal) (x2 x3 : S1x1024.Idx → EReal) :
    val_main_v8 (F := Ideal) x0 x1 x2 x3 = Spec.result x0 x1 x2 x3 := by
  funext i
  obtain ⟨b, f, rfl⟩ : ∃ (b : Fin 2048) (f : Fin 1024), i = ix2 b f := ⟨i 0, i 1, eq_ix2 i⟩
  rw [Spec.result_ix2, val_main_v8_apply, val_main_v6_apply, val_main_v7_apply, val_main_v5_apply, max_apply]
  have e5 : idx_main_v5 (ix2 b f) = ix2 (0 : Fin 1) f := funext fun a => Fin.ext (by
    match a with
    | ⟨0, _⟩ => rfl
    | ⟨1, _⟩ => rfl)
  have e7 : idx_main_v7 (ix2 b f) = ix2 (0 : Fin 1) f := funext fun a => Fin.ext (by
    match a with
    | ⟨0, _⟩ => rfl
    | ⟨1, _⟩ => rfl)
  rw [e5, e7]
  rfl

end Cert.ReferenceIdeal.RefValue

end
-- ==== Proof.Pieces.lean ====
/-
  What one grid point's run of the kernel body leaves behind, as values.

  The body does the same thing at every point: it joins the block of scores of the current sample into the
  accumulator held in the scratch buffer, by an elementwise maximum. Two things depend on the point. At the first
  sample of a block of output features the accumulator is first overwritten with `-∞`, so what is joined there is
  the constant `-∞` block and not what the scratch held before. At the last sample the finished accumulator is
  read back once more, scaled and shifted by the per-feature row vectors, and stored into the output block.

  Each statement below says that the contents the run was found to leave — the stores it made, read back — are
  the corresponding pure expression of the body: the one store of a point covers the whole buffer, a load of a
  whole buffer reads its contents, and a load that follows a covering store reads that store's payload.
-/
import proofs.«149604_j24197845745735_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a rank-2 and of a rank-3 whole-buffer access. -/
theorem hz2 : (![0, 0] : Fin 2 → Nat) = fun _ => 0 := funext fun a => by fin_cases a <;> rfl
theorem hz3 : (![0, 0, 0] : Fin 3 → Nat) = fun _ => 0 := funext fun a => by fin_cases a <;> rfl

/-- FIRST SAMPLE of a block of output features: the scratch ends at the maximum of the `-∞` block and this
    sample's scores — what it held before is overwritten and never read. -/
theorem scratch_A (c : Dev nD) (i : grid0.Coords) (arg2 : Memref sig .tc .vmem S2048x64 .f32) (harg2 : arg2.IsWhole) (arg3 : Memref sig .tc .vmem S1x512x64 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : cond0_0 i) (hc1 : ¬cond0_1 i)
    (x0 : Vec F S2048x64 .f32) (x1 : Vec F S1x512x64 .f32) (x2 : Vec F S1x512 .f32) (x3 : Vec F S1x512 .f32) :
    sout0_A_0 c i arg2 harg2 arg3 harg3 arg4 harg4 arg5 harg5 arg6 harg6 arg7 harg7 hc0 hc1 x0 x1 x2 x3 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x512) hz2, View.readCov_unit_zero (S := S2048x512) _ hz2]
  simp only [View.readAt_eq_ld, harg2.read_unread, harg3.read_unread, View.ld_unit_zero (S := S2048x64) hz2,
    View.ld_unit_zero (S := S1x512x64) hz3]

/-- A MIDDLE SAMPLE: the scratch, holding `xs0`, ends at the maximum of `xs0` and this sample's scores. -/
theorem scratch_B (c : Dev nD) (i : grid0.Coords) (arg2 : Memref sig .tc .vmem S2048x64 .f32) (harg2 : arg2.IsWhole) (arg3 : Memref sig .tc .vmem S1x512x64 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : ¬cond0_0 i) (hc1 : ¬cond0_1 i)
    (x0 : Vec F S2048x64 .f32) (x1 : Vec F S1x512x64 .f32) (x2 : Vec F S1x512 .f32) (x3 : Vec F S1x512 .f32) (xs0 : Vec F S2048x512 .f32) :
    sout0_B_0 c i arg2 harg2 arg3 harg3 arg4 harg4 arg5 harg5 arg6 harg6 arg7 harg7 hc0 hc1 x0 x1 x2 x3 xs0 = k0_pay2 x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero (S := S2048x512) hz2]
  simp only [View.readAt_eq_ld, harg2.read_unread, harg3.read_unread, harg7.read_unread,
    View.ld_unit_zero (S := S2048x64) hz2, View.ld_unit_zero (S := S1x512x64) hz3, View.ld_unit_zero (S := S2048x512) hz2]

/-- THE LAST SAMPLE, the scratch: as at a middle sample. -/
theorem scratch_C (c : Dev nD) (i : grid0.Coords) (arg2 : Memref sig .tc .vmem S2048x64 .f32) (harg2 : arg2.IsWhole) (arg3 : Memref sig .tc .vmem S1x512x64 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : ¬cond0_0 i) (hc1 : cond0_1 i)
    (x0 : Vec F S2048x64 .f32) (x1 : Vec F S1x512x64 .f32) (x2 : Vec F S1x512 .f32) (x3 : Vec F S1x512 .f32) (xs0 : Vec F S2048x512 .f32) :
    sout0_C_0 c i arg2 harg2 arg3 harg3 arg4 harg4 arg5 harg5 arg6 harg6 arg7 harg7 hc0 hc1 x0 x1 x2 x3 xs0 = k0_pay2 x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S2048x512) hz2]
  simp only [View.readAt_eq_ld, harg2.read_unread, harg3.read_unread, harg7.read_unread,
    View.ld_unit_zero (S := S2048x64) hz2, View.ld_unit_zero (S := S1x512x64) hz3, View.ld_unit_zero (S := S2048x512) hz2]

/-- THE LAST SAMPLE, the output block: the finished accumulator (read back after its store) times the scale row
    plus the bias row. -/
theorem out_C (c : Dev nD) (i : grid0.Coords) (arg2 : Memref sig .tc .vmem S2048x64 .f32) (harg2 : arg2.IsWhole) (arg3 : Memref sig .tc .vmem S1x512x64 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : ¬cond0_0 i) (hc1 : cond0_1 i)
    (x0 : Vec F S2048x64 .f32) (x1 : Vec F S1x512x64 .f32) (x2 : Vec F S1x512 .f32) (x3 : Vec F S1x512 .f32) (xs0 : Vec F S2048x512 .f32) :
    out0_C_4 c i arg2 harg2 arg3 harg3 arg4 harg4 arg5 harg5 arg6 harg6 arg7 harg7 hc0 hc1 x0 x1 x2 x3 xs0 = k0_pay3 (k0_pay2 x0 x1 xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S2048x512) hz2, View.readCov_unit_zero (S := S2048x512) _ hz2]
  simp only [View.readAt_eq_ld, harg2.read_unread, harg3.read_unread, harg4.read_unread, harg5.read_unread, harg7.read_unread,
    View.ld_unit_zero (S := S2048x64) hz2, View.ld_unit_zero (S := S1x512x64) hz3, View.ld_unit_zero (S := S2048x512) hz2,
    View.ld_unit_zero (S := S1x512) hz2]

end Cert.KernelIdeal.Pieces

end
-- ==== Proof.Payload.lean ====
/-
  The body's three stored expressions, read at one element over the extended reals.

  A change of float format is the identity there, so the two roundings to the matrix unit's format drop out; the
  matrix product into a zero accumulator is, at row `b` and column `f`, the sum over the 64 features of the image's
  entry times the weight's entry; the accumulator update is a maximum; the epilogue multiplies by the scale row's
  entry of column `f` and adds the bias row's.
-/
import proofs.«149604_j24197845745735_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The block the first sample starts from holds `-∞` everywhere. -/
theorem start_apply (j : S2048x512.Idx) : k0_pay1 (F := Ideal) j = ⊥ := by
  unfold k0_pay1
  refine (congrFun (shapeCast_self _ _) j).trans ?_
  show Ideal.ofBits .f32 0xFF800000#32 = ⊥
  simp [Ideal.ofBits, Ideal.ieee]

/-! ## The matrix product at an element -/

theorem lhs_row (j : S2048x512.Idx) (q : dot_S2048x64_S512x64_S2048x512_1_1_0_0_n_n.contr.Idx) : (dot_S2048x64_S512x64_S2048x512_1_1_0_0_n_n.lhsIdx j q 0).val = (j 0).val := by
  unfold DotDims.lhsIdx
  rw [dif_neg (show ¬(0 : Fin S2048x64.rank) ∈ dot_S2048x64_S512x64_S2048x512_1_1_0_0_n_n.lhsBatch by decide),
    dif_pos (show (0 : Fin S2048x64.rank) ∈ dot_S2048x64_S512x64_S2048x512_1_1_0_0_n_n.lhsNonContracting by decide)]
  rfl

theorem lhs_feature (j : S2048x512.Idx) (q : dot_S2048x64_S512x64_S2048x512_1_1_0_0_n_n.contr.Idx) : (dot_S2048x64_S512x64_S2048x512_1_1_0_0_n_n.lhsIdx j q 1).val = (q ⟨0, by decide⟩).val :=
  dot_S2048x64_S512x64_S2048x512_1_1_0_0_n_n.lhsIdx_val_of_single rfl j q

theorem rhs_row (j : S2048x512.Idx) (q : dot_S2048x64_S512x64_S2048x512_1_1_0_0_n_n.contr.Idx) : (dot_S2048x64_S512x64_S2048x512_1_1_0_0_n_n.rhsIdx j q 0).val = (j 1).val := by
  unfold DotDims.rhsIdx
  rw [dif_neg (show ¬(0 : Fin S512x64.rank) ∈ dot_S2048x64_S512x64_S2048x512_1_1_0_0_n_n.rhsBatch by decide),
    dif_pos (show (0 : Fin S512x64.rank) ∈ dot_S2048x64_S512x64_S2048x512_1_1_0_0_n_n.rhsNonContracting by decide)]
  rfl

theorem rhs_feature (j : S2048x512.Idx) (q : dot_S2048x64_S512x64_S2048x512_1_1_0_0_n_n.contr.Idx) : (dot_S2048x64_S512x64_S2048x512_1_1_0_0_n_n.rhsIdx j q 1).val = (q ⟨0, by decide⟩).val :=
  dot_S2048x64_S512x64_S2048x512_1_1_0_0_n_n.rhsIdx_val_of_single rfl j q

/-- Row `b` of the left operand against row `f` of the right one, both contracted along their last axis: the dot
    product over the 64 features. -/
theorem scores_apply (x : FVec Ideal S2048x64 .bf16) (w : FVec Ideal S512x64 .bf16) (b : Fin 2048) (f : Fin 512) :
    matmul dot_S2048x64_S512x64_S2048x512_1_1_0_0_n_n none x w (constant (F := Ideal) S2048x512 .f32 0x00000000#32) (ix2 b f)
      = ∑ k : Fin 64, x (ix2 b k) * w (ix2 f k) := by
  show FloatOps.matmul dot_S2048x64_S512x64_S2048x512_1_1_0_0_n_n none x w (constant (F := Ideal) S2048x512 .f32 0x00000000#32) (ix2 b f) = _
  rw [Ideal.matmul_constant_zero_apply, ← Equiv.sum_comp (contrEquiv1 dot_S2048x64_S512x64_S2048x512_1_1_0_0_n_n 64 rfl rfl).symm]
  refine Finset.sum_congr rfl fun k _ => ?_
  have hk := contrEquiv1_symm_val dot_S2048x64_S512x64_S2048x512_1_1_0_0_n_n 64 rfl rfl k
  have el : dot_S2048x64_S512x64_S2048x512_1_1_0_0_n_n.lhsIdx (ix2 b f) ((contrEquiv1 dot_S2048x64_S512x64_S2048x512_1_1_0_0_n_n 64 rfl rfl).symm k) = ix2 b k := funext fun a => Fin.ext (by
    match a with
    | ⟨0, _⟩ => exact lhs_row _ _
    | ⟨1, _⟩ => exact (lhs_feature _ _).trans hk)
  have er : dot_S2048x64_S512x64_S2048x512_1_1_0_0_n_n.rhsIdx (ix2 b f) ((contrEquiv1 dot_S2048x64_S512x64_S2048x512_1_1_0_0_n_n 64 rfl rfl).symm k) = ix2 f k := funext fun a => Fin.ext (by
    match a with
    | ⟨0, _⟩ => exact rhs_row _ _
    | ⟨1, _⟩ => exact (rhs_feature _ _).trans hk)
  rw [el, er]

/-! ## The accumulator update and the epilogue at an element -/

/-- The update: the accumulator's entry joined, by a maximum, with the score of image `b` against the current
    sample's weights for output feature `f` of the block. -/
theorem update_apply (x0 : Vec Ideal S2048x64 .f32) (x1 : Vec Ideal S1x512x64 .f32) (acc : Vec Ideal S2048x512 .f32)
    (b : Fin 2048) (f : Fin 512) :
    k0_pay2 (F := Ideal) x0 x1 acc (ix2 b f)
      = max (acc (ix2 b f)) (∑ k : Fin 64, x0 (ix2 b k) * x1 (ix3 (0 : Fin 1) f k)) := by
  unfold k0_pay2
  refine (congrFun (shapeCast_self _ _) (ix2 b f)).trans ?_
  refine (maximumf_apply _ _ _).trans ?_
  refine congrArg (max (acc (ix2 b f))) ?_
  refine (scores_apply _ _ b f).trans ?_
  refine Finset.sum_congr rfl fun k _ => ?_
  refine congrArg₂ (· * ·) ?_ ?_
  · exact congrFun (shapeCast_self x0 _) (ix2 b k)
  · exact shapeCast_1ab_ab_apply x1 _ f k

/-- The epilogue: the accumulator's entry times the scale row's entry of its column, plus the bias row's. -/
theorem epilogue_apply (a : Vec Ideal S2048x512 .f32) (sc bi : Vec Ideal S1x512 .f32) (b : Fin 2048) (f : Fin 512) :
    k0_pay3 (F := Ideal) a sc bi (ix2 b f) = a (ix2 b f) * sc (ix2 (0 : Fin 1) f) + bi (ix2 (0 : Fin 1) f) := by
  unfold k0_pay3
  refine (addf_apply _ _ _).trans ?_
  refine congrArg₂ (· + ·) ?_ ?_
  · refine (mulf_apply _ _ _).trans ?_
    exact congrArg (a (ix2 b f) * ·) (broadcastTo_1b_ab_apply _ _ b f)
  · exact broadcastTo_1b_ab_apply _ _ b f

end Cert.KernelIdeal.Payload

end
-- ==== Proof.Blocks.lean ====
/-
  The blocks the kernel's windows hand the body at a grid point, read element by element from the argument
  arrays.

  Before the launch the host flattens each image to 64 features, flattens each sampled weight the same way and
  moves the sample axis in front, so the weights lie as (sample, output feature, feature). At grid point `t` the
  image window shows the whole flattened image array; the weight window shows, of sample `t % 64`, the rows of the
  512 output features of block `t / 64`; the scale and bias windows show that block's 512 columns of their one row.
-/
import proofs.«149604_j24197845745735_2_alg».proof.Proof.Gen.KernelIdeal.Frame
import proofs.«149604_j24197845745735_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The block index of every window at every grid point, decided over the grid. -/
theorem idx_facts : ∀ t : Fin cfg0.N,
    win0_0.index t (0 : Fin 2) = 0 ∧ win0_0.index t (1 : Fin 2) = 0
    ∧ win0_1.index t (0 : Fin 3) = t.val % 64 ∧ win0_1.index t (1 : Fin 3) = t.val / 64 ∧ win0_1.index t (2 : Fin 3) = 0
    ∧ win0_2.index t (0 : Fin 2) = 0 ∧ win0_2.index t (1 : Fin 2) = t.val / 64
    ∧ win0_3.index t (0 : Fin 2) = 0 ∧ win0_3.index t (1 : Fin 2) = t.val / 64
    ∧ win0_4.index t (0 : Fin 2) = 0 ∧ win0_4.index t (1 : Fin 2) = t.val / 64 :=
  (by decide +kernel : ∀ t : Fin grid0.N, _)

theorem lt128 (t : Fin cfg0.N) : t.val < 128 := lt_of_lt_of_eq t.isLt (show cfg0.N = 128 from N_0)

/-! ## The arrays the region finds: the host's flattenings -/

/-- The flattened images, as the region finds them. -/
theorem V_images (c : Dev nD) : (V m c main_v0 : S2048x64.Idx → EReal)
    = shapeCast S2048x64 (m ((c : Thread nD τ).loc main_arg0)) shapeCasts_S2048x1x8x8_S2048x64 := by
  dsimp only [Gen.V, Gen.hostOps0]; after_results; rfl

/-- The flattened weights with the sample axis in front, as the region finds them. -/
theorem V_weights (c : Dev nD) : (V m c main_v2 : S64x1024x64.Idx → EReal)
    = transpose S64x1024x64 [1, 0, 2] (shapeCast S1024x64x64 (m ((c : Thread nD τ).loc main_arg1)) shapeCasts_S1024x64x1x8x8_S1024x64x64)
        transposes_S1024x64x64_S64x1024x64_1_0_2 := by
  dsimp only [Gen.V, Gen.hostOps0]; after_results; rfl

/-- Feature `k` of flattened image `b` is entry `(k / 8, k % 8)` of the image's plane. -/
theorem images_apply (x : S2048x1x8x8.Idx → EReal) (b : Fin 2048) (k : Fin 64) :
    shapeCast S2048x64 x shapeCasts_S2048x1x8x8_S2048x64 (ix2 b k) = Spec.xAt x b k := by
  unfold Spec.xAt
  refine shapeCast_apply x _ (ix2 b k) _ ?_
  rw [Shape.rowMajor_val_four, Shape.rowMajor_val_two]
  have hk := k.isLt
  show ((b.val * 1 + 0) * 8 + k.val / 8) * 8 + k.val % 8 = b.val * 64 + k.val
  omega

/-- Entry (sample `p`, output feature `f`, feature `k`) of the re-laid weights is entry `(k / 8, k % 8)` of the plane
    of sample `p` of output feature `f`. -/
theorem weights_apply (w : S1024x64x1x8x8.Idx → EReal) (p : Fin 64) (f : Fin 1024) (k : Fin 64) :
    transpose S64x1024x64 [1, 0, 2] (shapeCast S1024x64x64 w shapeCasts_S1024x64x1x8x8_S1024x64x64)
        transposes_S1024x64x64_S64x1024x64_1_0_2 (ix3 p f k) = Spec.wAt w f p k := by
  refine (transpose_apply [1, 0, 2] _ transposes_S1024x64x64_S64x1024x64_1_0_2 (ix3 p f k) (ix3 f p k)
    (fun a => match a with | ⟨0, _⟩ => rfl | ⟨1, _⟩ => rfl | ⟨2, _⟩ => rfl)).trans ?_
  unfold Spec.wAt
  refine shapeCast_apply w _ (ix3 f p k) _ ?_
  rw [Shape.rowMajor_val_five, Shape.rowMajor_val_three]
  have hk := k.isLt
  show (((f.val * 64 + p.val) * 1 + 0) * 8 + k.val / 8) * 8 + k.val % 8 = (f.val * 64 + p.val) * 64 + k.val
  omega

/-! ## The four input blocks at a grid point -/

/-- The image block at any point: the flattened images themselves. -/
theorem image_block (c : Dev nD) (t : Fin cfg0.N) (b : Fin 2048) (k : Fin 64) :
    (iblk m c 0 t : Vec Ideal S2048x64 .f32) (ix2 b k) = Spec.xAt (m ((c : Thread nD τ).loc main_arg0)) b k := by
  obtain ⟨e0, e1, -⟩ := idx_facts t
  show V m c main_v0 (((cfg0.win 0).blk t).view.emb (ix2 b k)) = _
  have hi : ((cfg0.win 0).blk t).view.emb (ix2 b k) = ix2 b k := by
    funext a; apply Fin.ext
    match a with
    | ⟨0, _⟩ => show win0_0.index t (0 : Fin 2) * 2048 + 1 * b.val = b.val; omega
    | ⟨1, _⟩ => show win0_0.index t (1 : Fin 2) * 64 + 1 * k.val = k.val; omega
  rw [hi, V_images]
  exact images_apply _ b k

/-- The weight block at point `t`: the current sample's weights for the current block of output features. -/
theorem weight_block (c : Dev nD) (t : Fin cfg0.N) (f : Fin 512) (k : Fin 64) :
    (iblk m c 1 t : Vec Ideal S1x512x64 .f32) (ix3 (0 : Fin 1) f k)
      = Spec.wAt (m ((c : Thread nD τ).loc main_arg1)) (Spec.col t.val (lt128 t) f) (Spec.smp t.val) k := by
  obtain ⟨-, -, e0, e1, e2, -⟩ := idx_facts t
  have ht := lt128 t
  show V m c main_v2 (((cfg0.win 1).blk t).view.emb (ix3 (0 : Fin 1) f k)) = _
  have hi : ((cfg0.win 1).blk t).view.emb (ix3 (0 : Fin 1) f k) = ix3 (Spec.smp t.val) (Spec.col t.val (lt128 t) f) k := by
    funext a; apply Fin.ext
    match a with
    | ⟨0, _⟩ => show win0_1.index t (0 : Fin 3) * 1 + 1 * 0 = t.val % 64; omega
    | ⟨1, _⟩ => show win0_1.index t (1 : Fin 3) * 512 + 1 * f.val = t.val / 64 * 512 + f.val; omega
    | ⟨2, _⟩ => show win0_1.index t (2 : Fin 3) * 64 + 1 * k.val = k.val; omega
  rw [hi, V_weights]
  exact weights_apply _ _ _ k

/-- The scale block at point `t`: the current block's columns of the scale row. -/
theorem scale_block (c : Dev nD) (t : Fin cfg0.N) (f : Fin 512) :
    (iblk m c 2 t : Vec Ideal S1x512 .f32) (ix2 (0 : Fin 1) f)
      = m ((c : Thread nD τ).loc main_arg2) (ix2 (0 : Fin 1) (Spec.col t.val (lt128 t) f)) := by
  obtain ⟨-, -, -, -, -, e0, e1, -⟩ := idx_facts t
  show V m c main_arg2 (((cfg0.win 2).blk t).view.emb (ix2 (0 : Fin 1) f)) = _
  have hi : ((cfg0.win 2).blk t).view.emb (ix2 (0 : Fin 1) f) = ix2 (0 : Fin 1) (Spec.col t.val (lt128 t) f) := by
    funext a; apply Fin.ext
    match a with
    | ⟨0, _⟩ => show win0_2.index t (0 : Fin 2) * 1 + 1 * 0 = 0; omega
    | ⟨1, _⟩ => show win0_2.index t (1 : Fin 2) * 512 + 1 * f.val = t.val / 64 * 512 + f.val; omega
  rw [hi, V_main_arg2]

/-- The bias block at point `t`: the current block's columns of the bias row. -/
theorem bias_block (c : Dev nD) (t : Fin cfg0.N) (f : Fin 512) :
    (iblk m c 3 t : Vec Ideal S1x512 .f32) (ix2 (0 : Fin 1) f)
      = m ((c : Thread nD τ).loc main_arg3) (ix2 (0 : Fin 1) (Spec.col t.val (lt128 t) f)) := by
  obtain ⟨-, -, -, -, -, -, -, e0, e1, -⟩ := idx_facts t
  show V m c main_arg3 (((cfg0.win 3).blk t).view.emb (ix2 (0 : Fin 1) f)) = _
  have hi : ((cfg0.win 3).blk t).view.emb (ix2 (0 : Fin 1) f) = ix2 (0 : Fin 1) (Spec.col t.val (lt128 t) f) := by
    funext a; apply Fin.ext
    match a with
    | ⟨0, _⟩ => show win0_3.index t (0 : Fin 2) * 1 + 1 * 0 = 0; omega
    | ⟨1, _⟩ => show win0_3.index t (1 : Fin 2) * 512 + 1 * f.val = t.val / 64 * 512 + f.val; omega
  rw [hi, V_main_arg3]

end Cert.KernelIdeal.Blocks

end
-- ==== Proof.Accumulate.lean ====
/-
  What the scratch accumulator holds after every grid point, and what the last point of each block of output
  features stores into the output block.

  The 128 grid points run block by block: the 64 points of a block of 512 output features meet that block's 64
  samples in order. By induction on the point, after the point that meets sample `n % 64` the accumulator holds, at
  image `b` and column `f`, the running maximum over the samples met so far of the score of image `b` against that
  sample of output feature `(n / 64) · 512 + f`: the block's first point starts again from `-∞`, every later one joins
  its sample's score to what the point before left. After the block's last point this is the supremum over all 64
  samples, and that point stores it, scaled and shifted, into the output block.
-/
import proofs.«149604_j24197845745735_2_alg».proof.Proof.Gen.KernelIdeal.Frame
import proofs.«149604_j24197845745735_2_alg».proof.Proof.Spec
import proofs.«149604_j24197845745735_2_alg».proof.Proof.Pieces
import proofs.«149604_j24197845745735_2_alg».proof.Proof.Payload
import proofs.«149604_j24197845745735_2_alg».proof.Proof.Blocks

noncomputable section

namespace Cert.KernelIdeal.Accumulate

open Cert.KernelIdeal Cert.KernelIdeal.Gen Idealize.ShloMosaic Idealize.ShloMosaic.TcCoe Idealize.SL.Sem
open Idealize.ShloMosaic.ValueIdx
open Cert.KernelIdeal.Blocks (lt128)

variable (m : (ℓ : Loc nD τ sig) → Buf (Elt Ideal) ℓ)

/-- The update at an element, in the specification's words, for any blocks that read as the images and as one
    sample's weights for one block of output features. -/
theorem update_eq (x0 : Vec Ideal S2048x64 .f32) (x1 : Vec Ideal S1x512x64 .f32)
    (X : S2048x1x8x8.Idx → EReal) (W : S1024x64x1x8x8.Idx → EReal) (n : ℕ) (hn : n < 128)
    (h0 : ∀ (b : Fin 2048) (k : Fin 64), x0 (ix2 b k) = Spec.xAt X b k)
    (h1 : ∀ (f : Fin 512) (k : Fin 64), x1 (ix3 (0 : Fin 1) f k) = Spec.wAt W (Spec.col n hn f) (Spec.smp n) k)
    (acc : Vec Ideal S2048x512 .f32) (b : Fin 2048) (f : Fin 512) :
    k0_pay2 (F := Ideal) x0 x1 acc (ix2 b f) = max (acc (ix2 b f)) (Spec.score X W b (Spec.col n hn f) (Spec.smp n)) := by
  refine (Payload.update_apply x0 x1 acc b f).trans ?_
  refine congrArg (max (acc (ix2 b f))) ?_
  unfold Spec.score
  exact Finset.sum_congr rfl fun k _ => by rw [h0 b k, h1 f k]

/-- The update at grid point `t`, on that point's blocks. -/
theorem step (c : Dev nD) (t : Fin cfg0.N) (acc : Vec Ideal S2048x512 .f32) (b : Fin 2048) (f : Fin 512) :
    k0_pay2 (F := Ideal) (iblk m c 0 t) (iblk m c 1 t) acc (ix2 b f)
      = max (acc (ix2 b f)) (Spec.score (m ((c : Thread nD τ).loc main_arg0)) (m ((c : Thread nD τ).loc main_arg1)) b
          (Spec.col t.val (lt128 t) f) (Spec.smp t.val)) :=
  update_eq (iblk m c 0 t) (iblk m c 1 t) (m ((c : Thread nD τ).loc main_arg0)) (m ((c : Thread nD τ).loc main_arg1)) t.val (lt128 t)
    (Blocks.image_block m c t) (Blocks.weight_block m c t) acc b f

/-! ## Point by point -/

/-- The first point of a block leaves the update of the `-∞` block. -/
theorem scratch_first (c : Dev nD) (t : Fin cfg0.N) (h0 : t.val % 64 = 0) :
    (outsAt0 m c t.val t.isLt).2 = k0_pay2 (F := Ideal) (iblk m c 0 t) (iblk m c 1 t) (k0_pay1 (F := Ideal)) := by
  have h1 : ¬t.val % 64 = 63 := by omega
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- Every later point leaves the update of what the point before left. -/
theorem scratch_next (c : Dev nD) (t : Fin cfg0.N) (h0 : ¬t.val % 64 = 0) :
    (outsAt0 m c t.val t.isLt).2 = k0_pay2 (F := Ideal) (iblk m c 0 t) (iblk m c 1 t) (outsAt0 m c (t.val - 1) (Nat.lt_of_le_of_lt (Nat.sub_le _ _) t.isLt)).2 := by
  by_cases h1 : t.val % 64 = 63
  · rw [outsAt0_C m c t h0 h1]
    dsimp only
    exact Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Pieces.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- The last point of a block stores the epilogue of the accumulator it has just updated. -/
theorem out_last (c : Dev nD) (t : Fin cfg0.N) (h1 : t.val % 64 = 63) :
    (outsAt0 m c t.val t.isLt).1 = k0_pay3 (F := Ideal) (outsAt0 m c t.val t.isLt).2 (iblk m c 2 t) (iblk m c 3 t) := by
  have h0 : ¬t.val % 64 = 0 := by omega
  rw [outsAt0_C m c t h0 h1]
  dsimp only
  rw [Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
  exact Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-! ## The invariant -/

/-- The running maximum, over the samples met up to point `n`, of the scores of every image against the output
    features of point `n`'s block. -/
def accAfter (c : Dev nD) (n : ℕ) (hn : n < 128) : Vec Ideal S2048x512 .f32 := fun y =>
  Spec.runMax (fun q => Spec.score (m ((c : Thread nD τ).loc main_arg0)) (m ((c : Thread nD τ).loc main_arg1)) (y 0)
    (Spec.col n hn (y 1)) q) (n % 64)

theorem accAfter_apply (c : Dev nD) (n : ℕ) (hn : n < 128) (b : Fin 2048) (f : Fin 512) :
    accAfter m c n hn (ix2 b f) = Spec.runMax (fun q => Spec.score (m ((c : Thread nD τ).loc main_arg0))
      (m ((c : Thread nD τ).loc main_arg1)) b (Spec.col n hn f) q) (n % 64) := rfl

/-- THE INVARIANT: after point `n` the scratch holds the running maximum. -/
theorem scratch_eq (c : Dev nD) : ∀ (n : ℕ) (h : n < cfg0.N), (outsAt0 m c n h).2 = accAfter m c n (lt_of_lt_of_eq h N_0)
  | n, h => by
    have hn : n < 128 := lt_of_lt_of_eq h N_0
    by_cases h0 : n % 64 = 0
    · refine (scratch_first m c ⟨n, h⟩ h0).trans ?_
      funext y
      obtain ⟨b, f, rfl⟩ : ∃ (b : Fin 2048) (f : Fin 512), y = ix2 b f := ⟨y 0, y 1, eq_ix2 y⟩
      refine (step m c ⟨n, h⟩ _ b f).trans ?_
      rw [Payload.start_apply, accAfter_apply]
      exact (Spec.runMax_first _ n h0).symm
    · have hpos : 0 < n := Nat.pos_of_ne_zero fun e => h0 (by rw [e])
      have ih := scratch_eq c (n - 1) (by omega)
      refine (scratch_next m c ⟨n, h⟩ h0).trans ?_
      funext y
      obtain ⟨b, f, rfl⟩ : ∃ (b : Fin 2048) (f : Fin 512), y = ix2 b f := ⟨y 0, y 1, eq_ix2 y⟩
      refine (step m c ⟨n, h⟩ _ b f).trans ?_
      show max ((outsAt0 m c (n - 1) _).2 (ix2 b f)) _ = _
      rw [ih, accAfter_apply, accAfter_apply, Spec.col_pred n hn h0 f]
      exact (Spec.runMax_step _ n h0).symm

/-- What the last point of a block stores into the output block, at image `b` and column `f`: the specified result
    for output feature `(t / 64) · 512 + f`. -/
theorem out_eq (c : Dev nD) (t : Fin cfg0.N) (h1 : t.val % 64 = 63) (b : Fin 2048) (f : Fin 512) :
    (outsAt0 m c t.val t.isLt).1 (ix2 b f)
      = Spec.resultAt (m ((c : Thread nD τ).loc main_arg0)) (m ((c : Thread nD τ).loc main_arg1))
          (m ((c : Thread nD τ).loc main_arg2)) (m ((c : Thread nD τ).loc main_arg3)) b (Spec.col t.val (lt128 t) f) := by
  rw [out_last m c t h1, scratch_eq m c t.val t.isLt]
  refine (Payload.epilogue_apply _ (iblk m c 2 t) (iblk m c 3 t) b f).trans ?_
  rw [Blocks.scale_block m c t f, Blocks.bias_block m c t f, accAfter_apply, Spec.runMax_done _ t.val h1]
  rfl

end Cert.KernelIdeal.Accumulate

end
-- ==== Proof.Final.lean ====
/-
  From the blocks the pipeline writes back to the whole result array, and the kernel's run read as one function
  of its arguments.

  Output block `j` — all images, output features `512·j … 512·j + 511` — is written back exactly once, after the last
  sample of its 64 grid points, and holds there the specified result for those features. The two blocks tile the
  result array: an entry's column `f` lies in block `f / 512`. So the array ends holding the specified result
  everywhere.
-/
import proofs.«149604_j24197845745735_2_alg».proof.Proof.Gen.KernelIdeal.Value
import proofs.«149604_j24197845745735_2_alg».proof.Proof.Accumulate

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Blocks (lt128)

variable (m : (ℓ : Loc nD τ sig) → Buf (Elt Ideal) ℓ) (ρ : Dev nD → PrngReg)

/-- The specified result of core `c`'s four argument arrays, as contents of the result array. -/
abbrev spec (c : Dev nD) : Buf (Elt Ideal) ((c : Thread nD τ).loc main_v3) :=
  Spec.result (m ((c : Thread nD τ).loc main_arg0)) (m ((c : Thread nD τ).loc main_arg1))
    (m ((c : Thread nD τ).loc main_arg2)) (m ((c : Thread nD τ).loc main_arg3))

/-- WHAT A WRITE-BACK WRITES: at a point that writes the output block back, the block holds the specified
    result's entries under that block. -/
theorem flushed_eq (c : Dev nD) (t : Fin cfg0.N) (hf : (cfg0.win 4).flush t = true) :
    (dats m 0 c).flushed 4 t = ((cfg0.win 4).blk t).view.read (Elt Ideal) (spec m c) := by
  have h1 : t.val % 64 = 63 := (flush0_4 t).mp hf
  obtain ⟨-, -, -, -, -, -, -, -, -, e0, e1⟩ := Blocks.idx_facts t
  rw [Value.flushed4]
  funext y
  obtain ⟨b, f, rfl⟩ : ∃ (b : Fin 2048) (f : Fin 512), y = ix2 b f := ⟨y 0, y 1, eq_ix2 y⟩
  show (outsAt0 m c t.val t.isLt).1 (ix2 b f) = spec m c (((cfg0.win 4).blk t).view.emb (ix2 b f))
  have hi : ((cfg0.win 4).blk t).view.emb (ix2 b f) = ix2 b (Spec.col t.val (lt128 t) f) := by
    funext a; apply Fin.ext
    match a with
    | ⟨0, _⟩ => show win0_4.index t (0 : Fin 2) * 2048 + 1 * b.val = b.val; omega
    | ⟨1, _⟩ => show win0_4.index t (1 : Fin 2) * 512 + 1 * f.val = t.val / 64 * 512 + f.val; omega
  rw [hi, Accumulate.out_eq m c t h1 b f]
  rfl

/-- An index of the result array lies in point `t`'s output block iff each coordinate lies in the block's range. -/
theorem mem_blk (t : Fin cfg0.N) (i : S2048x1024.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v3).slice (win0_4.rect t)).set ↔ _
  rw [View.set_slice_whole, Rect.mem_set_unit]
  exact Iff.rfl

/-- THE COVER: the entry at column `f` lies in the block written back after the last sample of block `f / 512`. -/
theorem cover (i : S2048x1024.Idx) : ∃ t : Fin cfg0.N, (cfg0.win 4).flush t = true ∧ i ∈ ((cfg0.win 4).blk t).view.set := by
  have hi0 : (i 0).val < 2048 := (i 0).isLt
  have hi1 : (i 1).val < 1024 := (i 1).isLt
  have hN : cfg0.N = 128 := N_0
  let t : Fin cfg0.N := ⟨(i 1).val / 512 * 64 + 63, by omega⟩
  have ht : t.val = (i 1).val / 512 * 64 + 63 := rfl
  obtain ⟨-, -, -, -, -, -, -, -, -, e0, e1⟩ := Blocks.idx_facts t
  refine ⟨t, (flush0_4 t).mpr (by omega), ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 512 ≤ (i 1).val ∧ (i 1).val < win0_4.index t (1 : Fin 2) * 512 + 512; omega

/-- THE RESULT ARRAY after the run: the specified result. -/
theorem final (c : Dev nD) : (dats m 0 c).arrAt 4 cfg0.N = spec m c :=
  (dats m 0 c).arrAt_eq_of_cover 4 (spec m c) (flushed_eq m c) cover

/-- THE KERNEL'S RUN, READ: every weakly fair execution terminates with the result array at the specified
    result of the arguments and the arguments unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.lean ====
/-
  The certificate of a max-pooled sampled linear layer: for 2048 images of 64 features and 1024 output features
  with 64 sampled weight vectors each, the result at (image, output feature) is the largest, over the samples, of
  the dot product of the image with the sample's weights, times a per-feature scale plus a per-feature bias.

  The kernel walks a grid of 2 blocks of 512 output features × 64 samples, keeps a running maximum of the current
  block's scores in a scratch accumulator started at `-∞`, and stores the scaled and shifted maximum after the
  block's last sample; the reference contracts all samples at once, reduces with a maximum over the sample axis
  and then scales and shifts. Over the extended reals the two are one function: a change of float format is the
  identity, each score is the same finite sum of products (multiplication commutes), and a maximum taken one
  sample at a time from `-∞` is the supremum over all samples, which is what the reference's reduction is. No law
  used here needs finite inputs, so the precondition is never opened.

  The modules: `LibRunningMax` (a supremum reached one member at a time), `Spec` (the function, and the grid's
  arithmetic), `RefIsSpec` (the reference computes it), `Pieces`
  (what one grid point's run leaves, as the body's pure expressions), `Payload` (those expressions at an element),
  `Blocks` (the windows' blocks read from the argument arrays), `Accumulate` (the accumulator after every point, by
  induction), `Final` (the blocks written back tile the result array; the kernel's run). The three frames are the
  generated ones; the idealization rewrote nothing, so `preserves` is trivial.
-/
import proofs.«149604_j24197845745735_2_alg».proof.Defs
import proofs.«149604_j24197845745735_2_alg».proof.Proof.Gen.Kernel
import proofs.«149604_j24197845745735_2_alg».proof.Proof.Gen.Kernel.Skeleton
import proofs.«149604_j24197845745735_2_alg».proof.Proof.Gen.Kernel.Launch
import proofs.«149604_j24197845745735_2_alg».proof.Proof.Gen.Kernel.Points
import proofs.«149604_j24197845745735_2_alg».proof.Proof.Gen.Kernel.Frame
import proofs.«149604_j24197845745735_2_alg».proof.Proof.Gen.KernelIdeal
import proofs.«149604_j24197845745735_2_alg».proof.Proof.Gen.KernelIdeal.Skeleton
import proofs.«149604_j24197845745735_2_alg».proof.Proof.Gen.KernelIdeal.Launch
import proofs.«149604_j24197845745735_2_alg».proof.Proof.Gen.KernelIdeal.Points
import proofs.«149604_j24197845745735_2_alg».proof.Proof.Gen.KernelIdeal.Frame
import proofs.«149604_j24197845745735_2_alg».proof.Proof.Gen.ReferenceIdeal
import proofs.«149604_j24197845745735_2_alg».proof.Proof.Gen.KernelIdeal.Value
import proofs.«149604_j24197845745735_2_alg».proof.Proof.Gen.ReferenceIdeal.Run
import proofs.«149604_j24197845745735_2_alg».proof.Proof.Gen.ReferenceIdeal.Read
import proofs.«149604_j24197845745735_2_alg».proof.Proof.Gen.Pre_finite_inputs
import proofs.«149604_j24197845745735_2_alg».proof.Proof.RefIsSpec
import proofs.«149604_j24197845745735_2_alg».proof.Proof.Final
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the four arguments, the kernel's result array and the
    reference's both end at the specified result of those arguments. -/
theorem algebraic : Cert.algebraic_KernelIdeal_ReferenceIdeal := by
  intro m ρ m' ρ' _ hagree
  refine ⟨fun c => Cert.KernelIdeal.Final.spec m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
